-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048x256 : Shape := ⟨3, ![256, 2048, 256]⟩
abbrev S256 : Shape := ⟨1, ![256]⟩
abbrev S1024x4 : Shape := ⟨2, ![1024, 4]⟩
abbrev S4x65536 : Shape := ⟨2, ![4, 65536]⟩
abbrev S1024x1x256 : Shape := ⟨3, ![1024, 1, 256]⟩
abbrev S_ : Shape := ⟨0, ![]⟩

class Facts : Prop where
  bcast_S_S256x2048x256 : S_.BroadcastsInDim S256x2048x256 (![] : Fin 0 → Fin S256x2048x256.rank)
  reducesTo_S256x2048x256_S_d0_1_2 : S256x2048x256.ReducesTo [0, 1, 2] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S4x65536 : S_.BroadcastsInDim S4x65536 (![] : Fin 0 → Fin S4x65536.rank)
  reducesTo_S4x65536_S_d0_1 : S4x65536.ReducesTo [0, 1] S_
  bcast_S_S1024x1x256 : S_.BroadcastsInDim S1024x1x256 (![] : Fin 0 → Fin S1024x1x256.rank)
  reducesTo_S1024x1x256_S_d0_1_2 : S1024x1x256.ReducesTo [0, 1, 2] S_

variable [Facts]

def fn_part1 {F : FTy → Type} [FloatOps F] (main_v13 : IVec S_ 1) (main_v16 : IVec S1024x1x256 1) : IVec S_ 1 :=
  let main_c_5 : IVec S_ 1 := constantI S_ 1 1#1
  let main_v17 : IVec S_ 1 := (fun x v => Host.reduce IntOp.andi x v reducesTo_S1024x1x256_S_d0_1_2 h_S_) main_v16 main_c_5
  let main_v18 : IVec S_ 1 := andi main_v13 main_v17
  main_v18

def fn {F : FTy → Type} [FloatOps F] (main_arg0 : FVec F S256x2048x256 .f32) (main_arg1 : IVec S256 32) (main_arg2 : FVec F S1024x4 .f32) (main_arg3 : FVec F S4x65536 .f32) (main_arg4 : FVec F S1024x1x256 .f32) : IVec S_ 1 :=
  let main_v0 : FVec F S256x2048x256 .f32 := Host.absf main_arg0
  let main_cst : FVec F S_ .f32 := constant S_ .f32 0x7F800000#32
  let main_v1 : FVec F S256x2048x256 .f32 := broadcastInDim S256x2048x256 ![] bcast_S_S256x2048x256 main_cst
  let main_v2 : IVec S256x2048x256 1 := cmpf .olt main_v0 main_v1
  let main_c : IVec S_ 1 := constantI S_ 1 1#1
  let main_v3 : IVec S_ 1 := (fun x v => Host.reduce IntOp.andi x v reducesTo_S256x2048x256_S_d0_1_2 h_S_) main_v2 main_c
  let main_v4 : FVec F S1024x4 .f32 := Host.absf main_arg2
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  let main_v9 : FVec F S4x65536 .f32 := Host.absf main_arg3
  let main_cst_2 : FVec F S_ .f32 := constant S_ .f32 0x7F800000#32
  let main_v10 : FVec F S4x65536 .f32 := broadcastInDim S4x65536 ![] bcast_S_S4x65536 main_cst_2
  let main_v11 : IVec S4x65536 1 := cmpf .olt main_v9 main_v10
  let main_c_3 : IVec S_ 1 := constantI S_ 1 1#1
  let main_v12 : IVec S_ 1 := (fun x v => Host.reduce IntOp.andi x v reducesTo_S4x65536_S_d0_1 h_S_) main_v11 main_c_3
  let main_v13 : IVec S_ 1 := andi main_v8 main_v12
  let main_v14 : FVec F S1024x1x256 .f32 := Host.absf main_arg4
  let main_cst_4 : FVec F S_ .f32 := constant S_ .f32 0x7F800000#32
  let main_v15 : FVec F S1024x1x256 .f32 := broadcastInDim S1024x1x256 ![] bcast_S_S1024x1x256 main_cst_4
  let main_v16 : IVec S1024x1x256 1 := cmpf .olt main_v14 main_v15
  fn_part1 (F := F) main_v13 main_v16
-- ==== Kernel.lean ====
abbrev S256x2048x256 : Shape := ⟨3, ![256, 2048, 256]⟩
abbrev S256 : Shape := ⟨1, ![256]⟩
abbrev S1024x4 : Shape := ⟨2, ![1024, 4]⟩
abbrev S4x65536 : Shape := ⟨2, ![4, 65536]⟩
abbrev S1024x1x256 : Shape := ⟨3, ![1024, 1, 256]⟩
abbrev S_ : Shape := ⟨0, ![]⟩
abbrev S256x1 : Shape := ⟨2, ![256, 1]⟩
abbrev S256x4 : Shape := ⟨2, ![256, 4]⟩
abbrev S256x1x256 : Shape := ⟨3, ![256, 1, 256]⟩
abbrev S256x1x4 : Shape := ⟨3, ![256, 1, 4]⟩
abbrev S2x1x4 : Shape := ⟨3, ![2, 1, 4]⟩
abbrev S2x1x256 : Shape := ⟨3, ![2, 1, 256]⟩
abbrev S2x2048x256 : Shape := ⟨3, ![2, 2048, 256]⟩
abbrev S2x4 : Shape := ⟨2, ![2, 4]⟩
abbrev S4x256x256 : Shape := ⟨3, ![4, 256, 256]⟩
abbrev S2x256x256 : Shape := ⟨3, ![2, 256, 256]⟩
abbrev S2x1 : Shape := ⟨2, ![2, 1]⟩
abbrev S2x1x1 : Shape := ⟨3, ![2, 1, 1]⟩
abbrev S1x256x256 : Shape := ⟨3, ![1, 256, 256]⟩

abbrev nBuf : Space → Nat
  | .hbm => 25
  | .vmem => 9
  | .smem => 0
  | _ => 0

abbrev bufTy : (tb : Table) → Fin (tcTables nBuf tb) → BufTy
  | .hbm, ⟨0, _⟩ => ⟨S256x2048x256, .f32⟩
  | .hbm, ⟨1, _⟩ => ⟨S256, .i32⟩
  | .hbm, ⟨2, _⟩ => ⟨S1024x4, .f32⟩
  | .hbm, ⟨3, _⟩ => ⟨S4x65536, .f32⟩
  | .hbm, ⟨4, _⟩ => ⟨S1024x1x256, .f32⟩
  | .hbm, ⟨5, _⟩ => ⟨S_, .i32⟩
  | .hbm, ⟨6, _⟩ => ⟨S256, .i32⟩
  | .hbm, ⟨7, _⟩ => ⟨S256, .i1⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S256x1, .i32⟩
  | .hbm, ⟨13, _⟩ => ⟨S256x4, .f32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S256x1, .i32⟩
  | .hbm, ⟨22, _⟩ => ⟨S256x1x256, .f32⟩
  | .hbm, ⟨23, _⟩ => ⟨S256x1x4, .f32⟩
  | .hbm, ⟨24, _⟩ => ⟨S256x2048x256, .f32⟩
  | .local _ .vmem, ⟨0, _⟩ => ⟨S2x1x4, .f32⟩
  | .local _ .vmem, ⟨1, _⟩ => ⟨S2x1x4, .f32⟩
  | .local _ .vmem, ⟨2, _⟩ => ⟨S2x1x256, .f32⟩
  | .local _ .vmem, ⟨3, _⟩ => ⟨S2x1x256, .f32⟩
  | .local _ .vmem, ⟨4, _⟩ => ⟨S2x2048x256, .f32⟩
  | .local _ .vmem, ⟨5, _⟩ => ⟨S2x2048x256, .f32⟩
  | .local _ .vmem, ⟨6, _⟩ => ⟨S4x65536, .f32⟩
  | .local _ .vmem, ⟨7, _⟩ => ⟨S2x2048x256, .f32⟩
  | .local _ .vmem, ⟨8, _⟩ => ⟨S2x2048x256, .f32⟩
  | _, _ => ⟨S256x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x65536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S256 : S_.BroadcastsInDim S256 (![] : Fin 0 → Fin S256.rank)
  bcast_S256_S256x1_0 : S256.BroadcastsInDim S256x1 (![0] : Fin 1 → Fin S256x1.rank)
  shapeCasts_S256x4_S256x1x4 : S256x4.ShapeCasts S256x1x4
  inb_S2x1x4_S2x1x4_0_0_0 : ∀ a, (![0, 0, 0] : Fin 3 → Nat) a + S2x1x4.size a ≤ S2x1x4.size a
  h_S2x1x4 : 0 < S2x1x4.numel
  shapeCasts_S2x1x4_S2x1x4 : S2x1x4.ShapeCasts S2x1x4
  shapeCasts_S2x1x4_S2x4 : S2x1x4.ShapeCasts S2x4
  inb_S4x65536_S4x65536_0_0 : ∀ a, (![0, 0] : Fin 2 → Nat) a + S4x65536.size a ≤ S4x65536.size a
  h_S4x65536 : 0 < S4x65536.numel
  shapeCasts_S4x65536_S4x256x256 : S4x65536.ShapeCasts S4x256x256
  slices_S2x4_o0_0_S2x1 : S2x4.Slices ![0, 0] S2x1
  shapeCasts_S2x1_S2x1x1 : S2x1.ShapeCasts S2x1x1
  slices_S4x256x256_o0_0_0_S1x256x256 : S4x256x256.Slices ![0, 0, 0] S1x256x256
  broadcasts_S2x1x1_S2x256x256 : S2x1x1.Broadcasts S2x256x256
  broadcasts_S1x256x256_S2x256x256 : S1x256x256.Broadcasts S2x256x256
  slices_S2x4_o0_1_S2x1 : S2x4.Slices ![0, 1] S2x1
  slices_S4x256x256_o1_0_0_S1x256x256 : S4x256x256.Slices ![1, 0, 0] S1x256x256
  slices_S2x4_o0_2_S2x1 : S2x4.Slices ![0, 2] S2x1
  slices_S4x256x256_o2_0_0_S1x256x256 : S4x256x256.Slices ![2, 0, 0] S1x256x256
  slices_S2x4_o0_3_S2x1 : S2x4.Slices ![0, 3] S2x1
  slices_S4x256x256_o3_0_0_S1x256x256 : S4x256x256.Slices ![3, 0, 0] S1x256x256
  bitsLt_bf16_f32 : FTy.bits .bf16 < FTy.bits .f32
  inb_S2x2048x256_S2x2048x256_0_0_0 : ∀ a, (![0, 0, 0] : Fin 3 → Nat) a + S2x2048x256.size a ≤ S2x2048x256.size a
  h_S2x2048x256 : 0 < S2x2048x256.numel
  inb_S2x1x256_S2x1x256_0_0_0 : ∀ a, (![0, 0, 0] : Fin 3 → Nat) a + S2x1x256.size a ≤ S2x1x256.size a
  h_S2x1x256 : 0 < S2x1x256.numel
  shapeCasts_S2x1x256_S2x1x256 : S2x1x256.ShapeCasts S2x1x256
  broadcasts_S2x1x256_S2x2048x256 : S2x1x256.Broadcasts S2x2048x256
  gather_S1024x4_S256x1_S256x4_1_0_n_n_0_1_14_wf : GatherDims.WF S1024x4 S256x1 S256x4 [1] [0] [] [0] [] 1 ![1, 4]
  gather_S1024x1x256_S256x1_S256x1x256_12_0_n_n_0_1_11256_wf : GatherDims.WF S1024x1x256 S256x1 S256x1x256 [1, 2] [0] [] [0] [] 1 ![1, 1, 256]
  dot_S2x2048x256_S2x256x256_S2x2048x256_2_1_1_2_0_0_wf : DotDims.WF S2x2048x256 S2x256x256 S2x2048x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x4.size a ≤ S256x1x4.size a
  hwx0_0 : ∀ i : grid0.Coords, EltTy.bits .f32 = 32 ∨ (Rect.block (s := S256x1x4) S2x1x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x256.size a ≤ S256x1x256.size a
  hwx0_1 : ∀ i : grid0.Coords, EltTy.bits .f32 = 32 ∨ (Rect.block (s := S256x1x256) S2x1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x2048x256.size a ≤ S256x2048x256.size a
  hwx0_2 : ∀ i : grid0.Coords, EltTy.bits .f32 = 32 ∨ (Rect.block (s := S256x2048x256) S2x2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x65536.size a ≤ S4x65536.size a
  hwx0_3 : ∀ i : grid0.Coords, EltTy.bits .f32 = 32 ∨ (Rect.block (s := S4x65536) S4x65536.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x2048x256.size a ≤ S256x2048x256.size a
  hwx0_4 : ∀ i : grid0.Coords, EltTy.bits .f32 = 32 ∨ (Rect.block (s := S256x2048x256) S2x2048x256.size (cc0_transform_4 i) (hinb0_4 i)).WholeWords (EltTy.packing .f32)

variable [Facts₀]

def gather_S1024x4_S256x1_S256x4_1_0_n_n_0_1_14 : GatherDims S1024x4 S256x1 S256x4 where
  offsetDims := [1]
  collapsedSliceDims := [0]
  operandBatchingDims := []
  startIndicesBatchingDims := []
  startIndexMap := [0]
  indexVectorDim := 1
  sliceSizes := ![1, 4]
  wf := gather_S1024x4_S256x1_S256x4_1_0_n_n_0_1_14_wf
def gather_S1024x1x256_S256x1_S256x1x256_12_0_n_n_0_1_11256 : GatherDims S1024x1x256 S256x1 S256x1x256 where
  offsetDims := [1, 2]
  collapsedSliceDims := [0]
  operandBatchingDims := []
  startIndicesBatchingDims := []
  startIndexMap := [0]
  indexVectorDim := 1
  sliceSizes := ![1, 1, 256]
  wf := gather_S1024x1x256_S256x1_S256x1x256_12_0_n_n_0_1_11256_wf
def dot_S2x2048x256_S2x256x256_S2x2048x256_2_1_1_2_0_0 : DotDims S2x2048x256 S2x256x256 S2x2048x256 where
  lhsContracting := [2]
  rhsContracting := [1]
  lhsNonContracting := [1]
  rhsNonContracting := [2]
  lhsBatch := [0]
  rhsBatch := [0]
  wf := dot_S2x2048x256_S2x256x256_S2x2048x256_2_1_1_2_0_0_wf

abbrev win0_0 : Pipeline.Window sig grid0 :=
  Pipeline.Window.ofSpec (Memref.whole main_v14) S2x1x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x65536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2x2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x2048x256 : Shape := ⟨3, ![256, 2048, 256]⟩
abbrev S256 : Shape := ⟨1, ![256]⟩
abbrev S1024x4 : Shape := ⟨2, ![1024, 4]⟩
abbrev S4x65536 : Shape := ⟨2, ![4, 65536]⟩
abbrev S1024x1x256 : Shape := ⟨3, ![1024, 1, 256]⟩
abbrev S_ : Shape := ⟨0, ![]⟩
abbrev S256x1 : Shape := ⟨2, ![256, 1]⟩
abbrev S256x4 : Shape := ⟨2, ![256, 4]⟩
abbrev S256x65536 : Shape := ⟨2, ![256, 65536]⟩
abbrev S256x256x256 : Shape := ⟨3, ![256, 256, 256]⟩
abbrev S256x1x256 : Shape := ⟨3, ![256, 1, 256]⟩

abbrev nBuf : Space → Nat
  | .hbm => 28
  | .vmem => 0
  | .smem => 0
  | _ => 0

abbrev bufTy : (tb : Table) → Fin (tcTables nBuf tb) → BufTy
  | .hbm, ⟨0, _⟩ => ⟨S256x2048x256, .f32⟩
  | .hbm, ⟨1, _⟩ => ⟨S256, .i32⟩
  | .hbm, ⟨2, _⟩ => ⟨S1024x4, .f32⟩
  | .hbm, ⟨3, _⟩ => ⟨S4x65536, .f32⟩
  | .hbm, ⟨4, _⟩ => ⟨S1024x1x256, .f32⟩
  | .hbm, ⟨5, _⟩ => ⟨S_, .i32⟩
  | .hbm, ⟨6, _⟩ => ⟨S256, .i32⟩
  | .hbm, ⟨7, _⟩ => ⟨S256, .i1⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S256x1, .i32⟩
  | .hbm, ⟨13, _⟩ => ⟨S256x4, .f32⟩
  | .hbm, ⟨14, _⟩ => ⟨S256x65536, .f32⟩
  | .hbm, ⟨15, _⟩ => ⟨S256x256x256, .f32⟩
  | .hbm, ⟨16, _⟩ => ⟨S256x2048x256, .f32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S256x1, .i32⟩
  | .hbm, ⟨25, _⟩ => ⟨S256x1x256, .f32⟩
  | .hbm, ⟨26, _⟩ => ⟨S256x2048x256, .f32⟩
  | .hbm, ⟨27, _⟩ => ⟨S256x2048x256, .f32⟩
  | _, _ => ⟨S256x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  shapeCasts_S256x65536_S256x256x256 : S256x65536.ShapeCasts S256x256x256
  bcast_S256x1x256_S256x2048x256_0_1_2 : S256x1x256.BroadcastsInDim S256x2048x256 (![0, 1, 2] : Fin 3 → Fin S256x2048x256.rank)
  gather_S1024x4_S256x1_S256x4_1_0_n_n_0_1_14_wf : GatherDims.WF S1024x4 S256x1 S256x4 [1] [0] [] [0] [] 1 ![1, 4]
  dot_S256x4_S4x65536_S256x65536_1_0_0_1_n_n_wf : DotDims.WF S256x4 S4x65536 S256x65536 [1] [0] [0] [1] [] []
  dot_S256x2048x256_S256x256x256_S256x2048x256_2_1_1_2_0_0_wf : DotDims.WF S256x2048x256 S256x256x256 S256x2048x256 [2] [1] [1] [2] [0] [0]
  gather_S1024x1x256_S256x1_S256x1x256_12_0_n_n_0_1_11256_wf : GatherDims.WF S1024x1x256 S256x1 S256x1x256 [1, 2] [0] [] [0] [] 1 ![1, 1, 256]

variable [Facts₀]

def gather_S1024x4_S256x1_S256x4_1_0_n_n_0_1_14 : GatherDims S1024x4 S256x1 S256x4 where
  offsetDims := [1]
  collapsedSliceDims := [0]
  operandBatchingDims := []
  startIndicesBatchingDims := []
  startIndexMap := [0]
  indexVectorDim := 1
  sliceSizes := ![1, 4]
  wf := gather_S1024x4_S256x1_S256x4_1_0_n_n_0_1_14_wf
def dot_S256x4_S4x65536_S256x65536_1_0_0_1_n_n : DotDims S256x4 S4x65536 S256x65536 where
  lhsContracting := [1]
  rhsContracting := [0]
  lhsNonContracting := [0]
  rhsNonContracting := [1]
  lhsBatch := []
  rhsBatch := []
  wf := dot_S256x4_S4x65536_S256x65536_1_0_0_1_n_n_wf
def dot_S256x2048x256_S256x256x256_S256x2048x256_2_1_1_2_0_0 : DotDims S256x2048x256 S256x256x256 S256x2048x256 where
  lhsContracting := [2]
  rhsContracting := [1]
  lhsNonContracting := [1]
  rhsNonContracting := [2]
  lhsBatch := [0]
  rhsBatch := [0]
  wf := dot_S256x2048x256_S256x256x256_S256x2048x256_2_1_1_2_0_0_wf
def gather_S1024x1x256_S256x1_S256x1x256_12_0_n_n_0_1_11256 : GatherDims S1024x1x256 S256x1 S256x1x256 where
  offsetDims := [1, 2]
  collapsedSliceDims := [0]
  operandBatchingDims := []
  startIndicesBatchingDims := []
  startIndexMap := [0]
  indexVectorDim := 1
  sliceSizes := ![1, 1, 256]
  wf := gather_S1024x1x256_S256x1_S256x1x256_12_0_n_n_0_1_11256_wf

class Facts : Prop extends Facts₀ where

variable [Facts]
-- ==== Proof.Pieces.lean ====
/-
  The re-laying operations of the kernel body, each read at one index.

  The body never gathers or reduces before its matrix product: it only re-lays what it loaded. Per batch row `p` of the
  block (two rows per grid point) it takes the rank-`r` coefficient `u[p, 0, r]` out of the [2,1,4] coefficient block
  and stretches it over a [256,256] plane; it takes plane `r` of the [4,65536] factor table, viewed [4,256,256] — so
  entry `(k, o)` of the plane is column `k·256 + o` of row `r` — and repeats it for both batch rows; and it stretches
  the [2,1,256] bias block along the 2048 rows. Each lemma below says which ONE element of the loaded block such a chain
  reads at an index given by its coordinates. Nothing here depends on the element type.
-/
import Idealize.ShloMosaic.Lib.Pipeline.Value
import Idealize.ShloMosaic.Lib.ValueIdx

namespace Cert.LowRank

open Idealize.ShloMosaic Idealize.ShloMosaic.ValueIdx

abbrev B2x1x4 : Shape := ⟨3, ![2, 1, 4]⟩
abbrev B2x4 : Shape := ⟨2, ![2, 4]⟩
abbrev B2x1 : Shape := ⟨2, ![2, 1]⟩
abbrev B2x1x1 : Shape := ⟨3, ![2, 1, 1]⟩
abbrev B2x256x256 : Shape := ⟨3, ![2, 256, 256]⟩
abbrev B4x65536 : Shape := ⟨2, ![4, 65536]⟩
abbrev B4x256x256 : Shape := ⟨3, ![4, 256, 256]⟩
abbrev B1x256x256 : Shape := ⟨3, ![1, 256, 256]⟩
abbrev B2x1x256 : Shape := ⟨3, ![2, 1, 256]⟩
abbrev B2x2048x256 : Shape := ⟨3, ![2, 2048, 256]⟩

/-- Column `k·256 + o` of a 65536-wide row: where entry `(k, o)` of a [256,256] plane sits in the flat row. -/
abbrev flat (k o : Fin 256) : Fin 65536 := ⟨k.val * 256 + o.val, by have := k.isLt; have := o.isLt; omega⟩

variable {α : Type}

/-- The rank-`r` coefficient of batch row `p`, stretched over the [256,256] plane: everywhere `u[p, 0, r]`. -/
theorem coeff_apply (u : B2x1x4.Idx → α) (r : Nat) (hr : r < 4) (h1 : B2x1x4.ShapeCasts B2x1x4) (h2 : B2x1x4.ShapeCasts B2x4)
    (h3 : B2x4.Slices ![0, r] B2x1) (h4 : B2x1.ShapeCasts B2x1x1) (h5 : B2x1x1.Broadcasts B2x256x256)
    (p : Fin 2) (k o : Fin 256) :
    broadcastTo B2x256x256 (shapeCast B2x1x1 (extractStridedSlice B2x1 ![0, r] (shapeCast B2x4 (shapeCast B2x1x4 u h1) h2) h3) h4) h5
        (ix3 p k o)
      = u (ix3 p 0 ⟨r, hr⟩) := by
  rw [shapeCast_self]
  refine (broadcastTo_apply _ h5 (ix3 p k o) (ix3 p 0 0) (fun a => match a with
    | ⟨0, _⟩ => rfl
    | ⟨1, _⟩ => rfl
    | ⟨2, _⟩ => rfl)).trans ?_
  refine (shapeCast_apply _ h4 (ix3 p 0 0) (ix2 p 0) (by
    rw [Shape.rowMajor_val_two, Shape.rowMajor_val_three]
    show p.val * 1 + 0 = (p.val * 1 + 0) * 1 + 0
    omega)).trans ?_
  refine (extractStridedSlice_apply _ _ h3 (ix2 p 0) (ix2 p ⟨r, hr⟩) (fun a => match a with
    | ⟨0, _⟩ => by show p.val = 0 + p.val; omega
    | ⟨1, _⟩ => by show r = r + 0; omega)).trans ?_
  exact shapeCast_apply _ h2 (ix2 p ⟨r, hr⟩) (ix3 p 0 ⟨r, hr⟩) (by
    rw [Shape.rowMajor_val_three, Shape.rowMajor_val_two]
    show (p.val * 1 + 0) * 4 + r = p.val * 4 + r
    omega)

/-- Plane `r` of the factor table, repeated for both batch rows: at `(p, k, o)` it is row `r`, column `k·256 + o`. -/
theorem plane_apply (w : B4x65536.Idx → α) (r : Nat) (hr : r < 4) (h1 : B4x65536.ShapeCasts B4x256x256)
    (h2 : B4x256x256.Slices ![r, 0, 0] B1x256x256) (h3 : B1x256x256.Broadcasts B2x256x256) (p : Fin 2) (k o : Fin 256) :
    broadcastTo B2x256x256 (extractStridedSlice B1x256x256 ![r, 0, 0] (shapeCast B4x256x256 w h1) h2) h3 (ix3 p k o)
      = w (ix2 ⟨r, hr⟩ (flat k o)) := by
  have hk := k.isLt
  have ho := o.isLt
  refine (broadcastTo_apply _ h3 (ix3 p k o) (ix3 0 k o) (fun a => match a with
    | ⟨0, _⟩ => rfl
    | ⟨1, _⟩ => rfl
    | ⟨2, _⟩ => rfl)).trans ?_
  refine (extractStridedSlice_apply _ _ h2 (ix3 0 k o) (ix3 ⟨r, hr⟩ k o) (fun a => match a with
    | ⟨0, _⟩ => by show r = r + 0; omega
    | ⟨1, _⟩ => by show k.val = 0 + k.val; omega
    | ⟨2, _⟩ => by show o.val = 0 + o.val; omega)).trans ?_
  exact shapeCast_apply _ h1 (ix3 ⟨r, hr⟩ k o) (ix2 ⟨r, hr⟩ (flat k o)) (by
    rw [Shape.rowMajor_val_two, Shape.rowMajor_val_three]
    show r * 65536 + (k.val * 256 + o.val) = (r * 256 + k.val) * 256 + o.val
    omega)

/-- The bias block stretched along the rows: at `(p, n, o)` it is `b[p, 0, o]`. -/
theorem bias_apply (b : B2x1x256.Idx → α) (h1 : B2x1x256.ShapeCasts B2x1x256) (h2 : B2x1x256.Broadcasts B2x2048x256)
    (p : Fin 2) (n : Fin 2048) (o : Fin 256) :
    broadcastTo B2x2048x256 (shapeCast B2x1x256 b h1) h2 (ix3 p n o) = b (ix3 p 0 o) := by
  rw [shapeCast_self]
  exact broadcastTo_apply _ h2 (ix3 p n o) (ix3 p 0 o) (fun a => match a with
    | ⟨0, _⟩ => rfl
    | ⟨1, _⟩ => rfl
    | ⟨2, _⟩ => rfl)

end Cert.LowRank
-- ==== Proof.Spec.lean ====
/-
  The result both programs compute, as one function of the arrays, over the extended reals.

  Inputs: `x : [256,2048,256]`; `uv : [256,4]`, the rank coefficients of each batch element (row `indices[b]` of the
  coefficient table); `w : [4,65536]`, the four rank factors, each a [256,256] matrix laid out flat (entry `(k, o)` at
  column `k·256 + o`); `bg : [256,1,256]`, the bias row of each batch element. The weight of batch element `b` is the
  rank-4 combination  weight[b,k,o] = Σ_r uv[b,r] · w[r, k·256+o],  and the result is
      G[b,n,o] = Σ_k x[b,n,k] · weight[b,k,o] + bg[b,0,o].
  The kernel adds the four rank-one terms left to right onto a zero; addition of extended reals is associative with unit
  `0`, so that fold is the sum over the four ranks (`fold4`) — the only law the two programs' agreement needs, and it asks
  nothing of the inputs (no finiteness).
-/
import proofs.«158704_j36481452212318_2_alg».proof.Proof.Pieces
import Idealize.ShloMosaic.Lib.ValueIdx
import Idealize.ShloMosaic.PureOps.Ideal

noncomputable section

open scoped BigOperators

namespace Cert.LowRank

open Idealize.ShloMosaic Idealize.ShloMosaic.ValueIdx

abbrev A256x2048x256 : Shape := ⟨3, ![256, 2048, 256]⟩
abbrev A256x4 : Shape := ⟨2, ![256, 4]⟩
abbrev A256x1x256 : Shape := ⟨3, ![256, 1, 256]⟩

/-- Entry `(k, o)` of batch element `b`'s synthesized weight: the rank-4 combination of the factor planes. -/
def weight (uv : A256x4.Idx → EReal) (w : B4x65536.Idx → EReal) (b : Fin 256) (k o : Fin 256) : EReal :=
  ∑ r : Fin 4, uv (ix2 b r) * w (ix2 r (flat k o))

/-- The result array: each row of `x[b]` times batch element `b`'s weight, plus its bias row. -/
def G (x : A256x2048x256.Idx → EReal) (uv : A256x4.Idx → EReal) (w : B4x65536.Idx → EReal) (bg : A256x1x256.Idx → EReal) :
    A256x2048x256.Idx → EReal :=
  fun j => (∑ k : Fin 256, x (ix3 (j 0) (j 1) k) * weight uv w (j 0) k (j 2)) + bg (ix3 (j 0) 0 (j 2))

/-- Four terms added left to right onto zero are their sum. -/
theorem fold4 (a : Fin 4 → EReal) :
    (((0 + a ⟨0, by decide⟩) + a ⟨1, by decide⟩) + a ⟨2, by decide⟩) + a ⟨3, by decide⟩ = ∑ r : Fin 4, a r := by
  rw [Fin.sum_univ_four, zero_add]
  rfl

/-- The weight as the kernel body builds it for row `p` of a grid point's blocks, entry `(k, o)`: the four rank-one terms
    added left to right onto zero (`u` the point's [2,1,4] coefficient block, `w` the factor table). -/
def foldW (u : B2x1x4.Idx → EReal) (w : B4x65536.Idx → EReal) (p : Fin 2) (k o : Fin 256) : EReal :=
  (((0 + u (ix3 p 0 ⟨0, by decide⟩) * w (ix2 ⟨0, by decide⟩ (flat k o))) + u (ix3 p 0 ⟨1, by decide⟩) * w (ix2 ⟨1, by decide⟩ (flat k o)))
    + u (ix3 p 0 ⟨2, by decide⟩) * w (ix2 ⟨2, by decide⟩ (flat k o))) + u (ix3 p 0 ⟨3, by decide⟩) * w (ix2 ⟨3, by decide⟩ (flat k o))

abbrev A256x1x4 : Shape := ⟨3, ![256, 1, 4]⟩

/-- A [256,1,4] coefficient table as a [256,4] array: its unit middle axis dropped. -/
def uvOf (u : A256x1x4.Idx → EReal) : A256x4.Idx → EReal := fun i => u (ix3 (i 0) 0 (i 1))

/-- ONE ROW OF ONE BLOCK IS `G`. If row `p` of a grid point's coefficient, input and bias blocks is batch element `b` of the
    arrays `U`, `X`, `BG`, and its factor block is the table `W`, then the value the body stores at `(p, n, o)` — the product
    with the folded weight, plus the bias — is `G` at `(b, n, o)`: the fold is the sum over the ranks (`fold4`). -/
theorem block_is_G (X : A256x2048x256.Idx → EReal) (U : A256x1x4.Idx → EReal) (W : B4x65536.Idx → EReal) (BG : A256x1x256.Idx → EReal)
    (v0 : B2x1x4.Idx → EReal) (v3 : B4x65536.Idx → EReal) (v35 : B2x2048x256.Idx → EReal) (v38 : B2x1x256.Idx → EReal)
    (b : Fin 256) (p : Fin 2) (n : Fin 2048) (o : Fin 256)
    (h0 : ∀ r : Fin 4, v0 (ix3 p 0 r) = U (ix3 b 0 r)) (h3 : ∀ (r : Fin 4) (q : Fin 65536), v3 (ix2 r q) = W (ix2 r q))
    (h35 : ∀ k : Fin 256, v35 (ix3 p n k) = X (ix3 b n k)) (h38 : v38 (ix3 p 0 o) = BG (ix3 b 0 o)) :
    (∑ k : Fin 256, v35 (ix3 p n k) * foldW v0 v3 p k o) + v38 (ix3 p 0 o) = G X (uvOf U) W BG (ix3 b n o) := by
  unfold G
  refine congrArg₂ (· + ·) (Finset.sum_congr rfl fun k _ => ?_) h38
  rw [h35 k]
  refine congrArg₂ (· * ·) rfl ?_
  unfold weight
  rw [← fold4]
  unfold foldW uvOf
  simp only [h0, h3]

end Cert.LowRank

end
-- ==== Proof.Payload.lean ====
/-
  What the kernel body stores, at one index, over the extended reals.

  At a grid point the body holds a [2,1,4] block `u` of gathered rank coefficients, the whole [4,65536] factor table `w`,
  a [2,2048,256] block `x` of inputs and a [2,1,256] block `b` of gathered bias rows. For each of its two batch rows `p`
  it builds the [256,256] weight  W[p,k,o] = (((0 + u[p,0,0]·w[0,k·256+o]) + u[p,0,1]·w[1,k·256+o]) + u[p,0,2]·w[2,k·256+o])
  + u[p,0,3]·w[3,k·256+o],  multiplies  x[p] · W[p]  on the matrix unit into a zero accumulator, and adds the bias row.
  Over the extended reals the two narrowings to bf16 are the identity and the matrix product is the plain sum over the
  contracted axis, so the stored value at `(p, n, o)` is   Σ_k x[p,n,k] · W[p,k,o]  +  b[p,0,o].
-/
import proofs.«158704_j36481452212318_2_alg».proof.Proof.Gen.KernelIdeal.Skeleton
import proofs.«158704_j36481452212318_2_alg».proof.Proof.Pieces
import proofs.«158704_j36481452212318_2_alg».proof.Proof.Spec
import Idealize.ShloMosaic.Lib.ValueIdx
import Idealize.ShloMosaic.PureOps.Ideal.Laws

noncomputable section

namespace Cert.KernelIdeal.Body

open Cert.KernelIdeal Cert.KernelIdeal.Gen Cert.LowRank Idealize.ShloMosaic Idealize.ShloMosaic.ValueIdx

/-! ## The batched matrix product at an index -/

theorem lhs_0 (i : S2x2048x256.Idx) (q : dot_S2x2048x256_S2x256x256_S2x2048x256_2_1_1_2_0_0.contr.Idx) :
    (dot_S2x2048x256_S2x256x256_S2x2048x256_2_1_1_2_0_0.lhsIdx i q 0).val = (i 0).val := by
  unfold DotDims.lhsIdx
  rw [dif_pos (show (0 : Fin S2x2048x256.rank) ∈ dot_S2x2048x256_S2x256x256_S2x2048x256_2_1_1_2_0_0.lhsBatch by decide)]
  rfl
theorem lhs_1 (i : S2x2048x256.Idx) (q : dot_S2x2048x256_S2x256x256_S2x2048x256_2_1_1_2_0_0.contr.Idx) :
    (dot_S2x2048x256_S2x256x256_S2x2048x256_2_1_1_2_0_0.lhsIdx i q 1).val = (i 1).val := by
  unfold DotDims.lhsIdx
  rw [dif_neg (show ¬(1 : Fin S2x2048x256.rank) ∈ dot_S2x2048x256_S2x256x256_S2x2048x256_2_1_1_2_0_0.lhsBatch by decide),
    dif_pos (show (1 : Fin S2x2048x256.rank) ∈ dot_S2x2048x256_S2x256x256_S2x2048x256_2_1_1_2_0_0.lhsNonContracting by decide)]
  rfl
theorem lhs_2 (i : S2x2048x256.Idx) (q : dot_S2x2048x256_S2x256x256_S2x2048x256_2_1_1_2_0_0.contr.Idx) :
    (dot_S2x2048x256_S2x256x256_S2x2048x256_2_1_1_2_0_0.lhsIdx i q 2).val = (q ⟨0, by decide⟩).val :=
  dot_S2x2048x256_S2x256x256_S2x2048x256_2_1_1_2_0_0.lhsIdx_val_of_single rfl i q
theorem rhs_0 (i : S2x2048x256.Idx) (q : dot_S2x2048x256_S2x256x256_S2x2048x256_2_1_1_2_0_0.contr.Idx) :
    (dot_S2x2048x256_S2x256x256_S2x2048x256_2_1_1_2_0_0.rhsIdx i q 0).val = (i 0).val := by
  unfold DotDims.rhsIdx
  rw [dif_pos (show (0 : Fin S2x256x256.rank) ∈ dot_S2x2048x256_S2x256x256_S2x2048x256_2_1_1_2_0_0.rhsBatch by decide)]
  rfl
theorem rhs_1 (i : S2x2048x256.Idx) (q : dot_S2x2048x256_S2x256x256_S2x2048x256_2_1_1_2_0_0.contr.Idx) :
    (dot_S2x2048x256_S2x256x256_S2x2048x256_2_1_1_2_0_0.rhsIdx i q 1).val = (q ⟨0, by decide⟩).val :=
  dot_S2x2048x256_S2x256x256_S2x2048x256_2_1_1_2_0_0.rhsIdx_val_of_single rfl i q
theorem rhs_2 (i : S2x2048x256.Idx) (q : dot_S2x2048x256_S2x256x256_S2x2048x256_2_1_1_2_0_0.contr.Idx) :
    (dot_S2x2048x256_S2x256x256_S2x2048x256_2_1_1_2_0_0.rhsIdx i q 2).val = (i 2).val := by
  unfold DotDims.rhsIdx
  rw [dif_neg (show ¬(2 : Fin S2x256x256.rank) ∈ dot_S2x2048x256_S2x256x256_S2x2048x256_2_1_1_2_0_0.rhsBatch by decide),
    dif_pos (show (2 : Fin S2x256x256.rank) ∈ dot_S2x2048x256_S2x256x256_S2x2048x256_2_1_1_2_0_0.rhsNonContracting by decide)]
  rfl

/-- The matrix unit's product of a [2,2048,256] by a [2,256,256] operand, batch row by batch row, into a zero
    accumulator: at `(p, n, o)` the sum over the contracted axis of `l[p,n,k] · r[p,k,o]`. -/
theorem product_apply {φ₁ φ₂ : FTy} (l : FVec Ideal S2x2048x256 φ₁) (r : FVec Ideal S2x256x256 φ₂) (p : Fin 2) (n : Fin 2048) (o : Fin 256) :
    matmul (F := Ideal) dot_S2x2048x256_S2x256x256_S2x2048x256_2_1_1_2_0_0 none l r (constant (F := Ideal) S2x2048x256 .f32 0x00000000#32) (ix3 p n o)
      = ∑ k : Fin 256, l (ix3 p n k) * r (ix3 p k o) := by
  simp only [matmul]
  rw [Ideal.matmul_constant_zero_apply, ← Equiv.sum_comp (contrEquiv1 dot_S2x2048x256_S2x256x256_S2x2048x256_2_1_1_2_0_0 256 rfl rfl).symm]
  refine Finset.sum_congr rfl fun k _ => ?_
  have hk := contrEquiv1_symm_val dot_S2x2048x256_S2x256x256_S2x2048x256_2_1_1_2_0_0 256 rfl rfl k
  have el : dot_S2x2048x256_S2x256x256_S2x2048x256_2_1_1_2_0_0.lhsIdx (ix3 p n o) ((contrEquiv1 dot_S2x2048x256_S2x256x256_S2x2048x256_2_1_1_2_0_0 256 rfl rfl).symm k) = ix3 p n k :=
    funext fun a => Fin.ext (by
      match a with
      | ⟨0, _⟩ => exact lhs_0 _ _
      | ⟨1, _⟩ => exact lhs_1 _ _
      | ⟨2, _⟩ => exact (lhs_2 _ _).trans hk)
  have er : dot_S2x2048x256_S2x256x256_S2x2048x256_2_1_1_2_0_0.rhsIdx (ix3 p n o) ((contrEquiv1 dot_S2x2048x256_S2x256x256_S2x2048x256_2_1_1_2_0_0 256 rfl rfl).symm k) = ix3 p k o :=
    funext fun a => Fin.ext (by
      match a with
      | ⟨0, _⟩ => exact rhs_0 _ _
      | ⟨1, _⟩ => exact (rhs_1 _ _).trans hk
      | ⟨2, _⟩ => exact rhs_2 _ _)
  rw [el, er]

/-! ## The payload at an index -/

/-- What the body stores at `(p, n, o)` of the output block. -/
theorem pay_apply (v0 : Vec Ideal S2x1x4 .f32) (v3 : Vec Ideal S4x65536 .f32) (v35 : Vec Ideal S2x2048x256 .f32) (v38 : Vec Ideal S2x1x256 .f32)
    (p : Fin 2) (n : Fin 2048) (o : Fin 256) :
    k0_pay1 (F := Ideal) v0 v3 v35 v38 (ix3 p n o) = (∑ k : Fin 256, v35 (ix3 p n k) * foldW v0 v3 p k o) + v38 (ix3 p 0 o) := by
  unfold k0_pay1
  simp only [addf_apply]
  rw [product_apply, bias_apply]
  refine congrArg (· + v38 (ix3 p 0 o)) (Finset.sum_congr rfl fun k _ => ?_)
  simp only [truncf_apply, addf_apply, mulf_apply, broadcast_apply]
  rw [coeff_apply _ 0 (by decide), coeff_apply _ 1 (by decide), coeff_apply _ 2 (by decide), coeff_apply _ 3 (by decide),
    plane_apply _ 0 (by decide), plane_apply _ 1 (by decide), plane_apply _ 2 (by decide), plane_apply _ 3 (by decide)]
  unfold foldW
  rw [show (FloatOps.ofBits (F := Ideal) .f32 0#32 : EReal) = 0 from Ideal.ofBits_zero_f32]

end Cert.KernelIdeal.Body

end
-- ==== Proof.KernelArray.lean ====
/-
  From the kernel's blocks to its result array.

  The grid has 128 points; point `t` handles batch elements `2t` and `2t+1`. Its coefficient, bias, input and output blocks
  are rows `2t, 2t+1` of their arrays (all other axes whole), and the factor table is staged whole. So local index `(p, n, o)`
  of point `t`'s output block is array index `(2t+p, n, o)`, and what the body stores there — Σ_k x·W + b over the point's
  blocks (the payload at an index) — is `G` at `(2t+p, n, o)` of the arrays as the region finds them, once the left-to-right
  fold of the four rank-one terms is read as the sum over the ranks. Every batch element `b` lies in the block of point
  `b / 2`, so the written-back blocks cover the array and it ends holding `G` everywhere.
-/
import proofs.«158704_j36481452212318_2_alg».proof.Proof.Gen.KernelIdeal.Value
import proofs.«158704_j36481452212318_2_alg».proof.Proof.Payload
import proofs.«158704_j36481452212318_2_alg».proof.Proof.Spec
import Idealize.ShloMosaic.Lib.Pipeline.Value
import Idealize.ShloMosaic.Lib.StableHlo.Run

set_option maxRecDepth 16384

noncomputable section

open scoped BigOperators

namespace Cert.KernelIdeal.Whole

open Cert.KernelIdeal Cert.KernelIdeal.Gen Cert.KernelIdeal.Value Cert.KernelIdeal.Body Cert.LowRank
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: every blocked window is at block `t` on the batch axis and block 0 elsewhere; the
    factor table is always at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem lt128 (t : Fin cfg0.N) : t.val < 128 := Nat.lt_of_lt_of_eq t.isLt N_0

/-- The batch element that row `p` of point `t`'s blocks is. -/
def row (t : Fin cfg0.N) (p : Fin 2) : Fin 256 := ⟨2 * t.val + p.val, by have := lt128 t; have := p.isLt; omega⟩

/-! ## Each block read where the output's index says -/

theorem iblk0_apply (c : Dev nD) (t : Fin cfg0.N) (p : Fin 2) (r : Fin 4) :
    (iblk m c 0 t : S2x1x4.Idx → EReal) (ix3 p 0 r) = (V m c main_v14 : S256x1x4.Idx → EReal) (ix3 (row t p) 0 r) := by
  obtain ⟨e0, e1, e2, -⟩ := idx_facts t
  show V m c main_v14 (((cfg0.win 0).blk t).view.emb (ix3 p 0 r)) = V m c main_v14 (ix3 (row t p) 0 r)
  refine congrArg _ (funext fun a => Fin.ext ?_)
  match a with
  | ⟨0, _⟩ => show win0_0.index t (0 : Fin 3) * 2 + 1 * p.val = 2 * t.val + p.val; omega
  | ⟨1, _⟩ => show win0_0.index t (1 : Fin 3) * 1 + 1 * 0 = 0; omega
  | ⟨2, _⟩ => show win0_0.index t (2 : Fin 3) * 4 + 1 * r.val = r.val; omega

theorem iblk1_apply (c : Dev nD) (t : Fin cfg0.N) (p : Fin 2) (o : Fin 256) :
    (iblk m c 1 t : S2x1x256.Idx → EReal) (ix3 p 0 o) = (V m c main_v13 : S256x1x256.Idx → EReal) (ix3 (row t p) 0 o) := by
  obtain ⟨-, -, -, e0, e1, e2, -⟩ := idx_facts t
  show V m c main_v13 (((cfg0.win 1).blk t).view.emb (ix3 p 0 o)) = V m c main_v13 (ix3 (row t p) 0 o)
  refine congrArg _ (funext fun a => Fin.ext ?_)
  match a with
  | ⟨0, _⟩ => show win0_1.index t (0 : Fin 3) * 2 + 1 * p.val = 2 * t.val + p.val; omega
  | ⟨1, _⟩ => show win0_1.index t (1 : Fin 3) * 1 + 1 * 0 = 0; omega
  | ⟨2, _⟩ => show win0_1.index t (2 : Fin 3) * 256 + 1 * o.val = o.val; omega

theorem iblk2_apply (c : Dev nD) (t : Fin cfg0.N) (p : Fin 2) (n : Fin 2048) (k : Fin 256) :
    (iblk m c 2 t : S2x2048x256.Idx → EReal) (ix3 p n k) = (V m c main_arg0 : S256x2048x256.Idx → EReal) (ix3 (row t p) n k) := by
  obtain ⟨-, -, -, -, -, -, e0, e1, e2, -⟩ := idx_facts t
  show V m c main_arg0 (((cfg0.win 2).blk t).view.emb (ix3 p n k)) = V m c main_arg0 (ix3 (row t p) n k)
  refine congrArg _ (funext fun a => Fin.ext ?_)
  match a with
  | ⟨0, _⟩ => show win0_2.index t (0 : Fin 3) * 2 + 1 * p.val = 2 * t.val + p.val; omega
  | ⟨1, _⟩ => show win0_2.index t (1 : Fin 3) * 2048 + 1 * n.val = n.val; omega
  | ⟨2, _⟩ => show win0_2.index t (2 : Fin 3) * 256 + 1 * k.val = k.val; omega

theorem iblk3_apply (c : Dev nD) (t : Fin cfg0.N) (r : Fin 4) (q : Fin 65536) :
    (iblk m c 3 t : S4x65536.Idx → EReal) (ix2 r q) = (V m c main_arg3 : S4x65536.Idx → EReal) (ix2 r q) := by
  obtain ⟨-, -, -, -, -, -, -, -, -, e0, e1, -⟩ := idx_facts t
  show V m c main_arg3 (((cfg0.win 3).blk t).view.emb (ix2 r q)) = V m c main_arg3 (ix2 r q)
  refine congrArg _ (funext fun a => Fin.ext ?_)
  match a with
  | ⟨0, _⟩ => show win0_3.index t (0 : Fin 2) * 4 + 1 * r.val = r.val; omega
  | ⟨1, _⟩ => show win0_3.index t (1 : Fin 2) * 65536 + 1 * q.val = q.val; omega

theorem emb4 (t : Fin cfg0.N) (p : Fin 2) (n : Fin 2048) (o : Fin 256) :
    ((cfg0.win 4).blk t).view.emb (ix3 p n o) = (ix3 (row t p) n o : S256x2048x256.Idx) := by
  obtain ⟨-, -, -, -, -, -, -, -, -, -, -, e0, e1, e2⟩ := idx_facts t
  refine funext fun a => Fin.ext ?_
  match a with
  | ⟨0, _⟩ => show win0_4.index t (0 : Fin 3) * 2 + 1 * p.val = 2 * t.val + p.val; omega
  | ⟨1, _⟩ => show win0_4.index t (1 : Fin 3) * 2048 + 1 * n.val = n.val; omega
  | ⟨2, _⟩ => show win0_4.index t (2 : Fin 3) * 256 + 1 * o.val = o.val; omega

/-! ## What a point writes back is its block of `G` -/

/-- The result array as the region's arrays determine it. -/
abbrev result (c : Dev nD) : S256x2048x256.Idx → EReal :=
  G (V m c main_arg0) (uvOf (V m c main_v14)) (V m c main_arg3) (V m c main_v13)

theorem flushed_eq (c : Dev nD) (t : Fin cfg0.N) :
    (dats m 0 c).flushed 4 t = ((cfg0.win 4).blk t).view.read (Elt Ideal) (result m c) := by
  rw [Value.flushed4]
  unfold out0_4
  rw [View.canon_unit_zero hz3]
  simp only [View.ld_unit_zero (S := S2x1x4) hz3, View.ld_unit_zero (S := S4x65536) hz2,
    View.ld_unit_zero (S := S2x2048x256) hz3, View.ld_unit_zero (S := S2x1x256) hz3]
  funext j
  obtain ⟨p, n, o, rfl⟩ : ∃ (p : Fin 2) (n : Fin 2048) (o : Fin 256), j = ix3 p n o := ⟨j 0, j 1, j 2, eq_ix3 j⟩
  show k0_pay1 (F := Ideal) (iblk m c 0 t) (iblk m c 3 t) (iblk m c 2 t) (iblk m c 1 t) (ix3 p n o)
    = result m c (((cfg0.win 4).blk t).view.emb (ix3 p n o))
  rw [pay_apply, emb4]
  exact block_is_G (V m c main_arg0) (V m c main_v14) (V m c main_arg3) (V m c main_v13)
    (iblk m c 0 t) (iblk m c 3 t) (iblk m c 2 t) (iblk m c 1 t) (row t p) p n o
    (fun r => iblk0_apply m c t p r) (fun r q => iblk3_apply m c t r q) (fun k => iblk2_apply m c t p n k) (iblk1_apply m c t p o)

/-! ## The blocks cover the array -/

/-- An index of the array is in point `t`'s output block iff each coordinate is in the block's range on its axis. -/
theorem mem_blk (t : Fin cfg0.N) (i : S256x2048x256.Idx) :
    i ∈ ((cfg0.win 4).blk t).view.set ↔ ∀ a : Fin 3, win0_4.index t a * S2x2048x256.size a ≤ (i a).val
      ∧ (i a).val < win0_4.index t a * S2x2048x256.size a + S2x2048x256.size a := by
  show i ∈ ((View.whole main_v15).slice (win0_4.rect t)).set ↔ _
  rw [View.set_slice_whole, Rect.mem_set_unit]
  exact Iff.rfl

/-- Batch element `b` is written back by point `b / 2`. -/
theorem cover (i : S256x2048x256.Idx) : ∃ t : Fin cfg0.N, (cfg0.win 4).flush t = true ∧ i ∈ ((cfg0.win 4).blk t).view.set := by
  have h0 : (i 0).val < 256 := (i 0).isLt
  have h1 : (i 1).val < 2048 := (i 1).isLt
  have h2 : (i 2).val < 256 := (i 2).isLt
  have ht : (i 0).val / 2 < cfg0.N := by rw [show cfg0.N = 128 from N_0]; omega
  obtain ⟨-, -, -, -, -, -, -, -, -, -, -, e0, e1, e2⟩ := idx_facts ⟨(i 0).val / 2, ht⟩
  have e0' : win0_4.index ⟨(i 0).val / 2, ht⟩ (0 : Fin 3) = (i 0).val / 2 := e0
  refine ⟨⟨(i 0).val / 2, ht⟩, flush0_4 _, ?_⟩
  rw [mem_blk]
  intro a
  match a with
  | ⟨0, _⟩ =>
    show win0_4.index ⟨(i 0).val / 2, ht⟩ (0 : Fin 3) * 2 ≤ (i 0).val ∧ (i 0).val < win0_4.index ⟨(i 0).val / 2, ht⟩ (0 : Fin 3) * 2 + 2
    omega
  | ⟨1, _⟩ =>
    show win0_4.index ⟨(i 0).val / 2, ht⟩ (1 : Fin 3) * 2048 ≤ (i 1).val ∧ (i 1).val < win0_4.index ⟨(i 0).val / 2, ht⟩ (1 : Fin 3) * 2048 + 2048
    omega
  | ⟨2, _⟩ =>
    show win0_4.index ⟨(i 0).val / 2, ht⟩ (2 : Fin 3) * 256 ≤ (i 2).val ∧ (i 2).val < win0_4.index ⟨(i 0).val / 2, ht⟩ (2 : Fin 3) * 256 + 256
    omega

/-- So the result array ends holding `G` of the arrays as the region finds them. -/
theorem final (c : Dev nD) : (dats m 0 c).arrAt 4 cfg0.N = result m c :=
  (dats m 0 c).arrAt_eq_of_cover 4 (result m c) (fun t _ => flushed_eq m c t) cover

/-! ## The two gathered tables, as functions of the arguments -/

/-- The row indices both gathers use: a negative index is moved up by the table's 1024 rows. -/
abbrev rowsOf (x1 : (⟨S256, .i32⟩ : BufTy).Contents (Elt Ideal)) : (⟨S256x1, .i32⟩ : BufTy).Contents (Elt Ideal) :=
  broadcastInDim S256x1 ![0] bcast_S256_S256x1_0
    (select (cmpi .slt x1 (broadcastInDim S256 ![] bcast_S_S256 (constantI S_ 32 0#32)))
      (addi x1 (broadcastInDim S256 ![] bcast_S_S256 (constantI S_ 32 1024#32))) x1)

/-- The gathered rank coefficients, [256,4]. -/
def uvK (x1 : (⟨S256, .i32⟩ : BufTy).Contents (Elt Ideal)) (x2 : (⟨S1024x4, .f32⟩ : BufTy).Contents (Elt Ideal)) :
    (⟨S256x4, .f32⟩ : BufTy).Contents (Elt Ideal) :=
  Host.gather gather_S1024x4_S256x1_S256x4_1_0_n_n_0_1_14 x2 (rowsOf x1)

/-- The gathered bias rows, [256,1,256]. -/
def bgK (x1 : (⟨S256, .i32⟩ : BufTy).Contents (Elt Ideal)) (x4 : (⟨S1024x1x256, .f32⟩ : BufTy).Contents (Elt Ideal)) :
    (⟨S256x1x256, .f32⟩ : BufTy).Contents (Elt Ideal) :=
  Host.gather gather_S1024x1x256_S256x1_S256x1x256_12_0_n_n_0_1_11256 x4 (rowsOf x1)

/-- The region finds the coefficient table as the host wrote it: the gather, with a unit middle axis added. -/
theorem V_v14 (c : Dev nD) : (V m c main_v14 : S256x1x4.Idx → EReal)
    = shapeCast S256x1x4 (uvK (m ((c : Thread nD τ).loc main_arg1)) (m ((c : Thread nD τ).loc main_arg2))) shapeCasts_S256x4_S256x1x4 := by
  dsimp only [Gen.V, Gen.hostOps0]
  after_results
  rfl

/-- The region finds the bias table as the host gathered it. -/
theorem V_v13 (c : Dev nD) : (V m c main_v13 : S256x1x256.Idx → EReal)
    = bgK (m ((c : Thread nD τ).loc main_arg1)) (m ((c : Thread nD τ).loc main_arg4)) := by
  dsimp only [Gen.V, Gen.hostOps0]
  after_results
  rfl

/-- Dropping the unit axis the reshape added gives the gathered coefficients back. -/
theorem uvOf_V14 (c : Dev nD) : uvOf (V m c main_v14) = uvK (m ((c : Thread nD τ).loc main_arg1)) (m ((c : Thread nD τ).loc main_arg2)) := by
  funext i
  unfold uvOf
  rw [V_v14]
  exact shapeCast_apply _ shapeCasts_S256x4_S256x1x4 (ix3 (i 0) 0 (i 1)) i (by
    rw [Shape.rowMajor_val_two, Shape.rowMajor_val_three]
    show (i 0).val * 4 + (i 1).val = ((i 0).val * 1 + 0) * 4 + (i 1).val
    omega)

/-- The result array as a function of the argument arrays. -/
theorem result_eq (c : Dev nD) : result m c
    = G (m ((c : Thread nD τ).loc main_arg0)) (uvK (m ((c : Thread nD τ).loc main_arg1)) (m ((c : Thread nD τ).loc main_arg2)))
        (m ((c : Thread nD τ).loc main_arg3)) (bgK (m ((c : Thread nD τ).loc main_arg1)) (m ((c : Thread nD τ).loc main_arg4))) := by
  show G _ _ _ _ = _
  rw [uvOf_V14, V_v13, V_main_arg0, V_main_arg3]

/-! ## The run, read -/

/-- Every weakly fair execution of the kernel's program terminates with the result array at `G` of the argument arrays and
    of the two gathered tables, the arguments unchanged. -/
theorem run : θ_run defs (onTc (τ := τ) (main (F := Ideal))) ⟨m, fun _ => 0, ρ⟩ fun r => ∀ c : Dev nD,
      r.2.mem ((c : Thread nD τ).loc main_v15)
        = G (m ((c : Thread nD τ).loc main_arg0)) (uvK (m ((c : Thread nD τ).loc main_arg1)) (m ((c : Thread nD τ).loc main_arg2)))
            (m ((c : Thread nD τ).loc main_arg3)) (bgK (m ((c : Thread nD τ).loc main_arg1)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1.trans (final m c)).trans (result_eq m c), (h c).2⟩)
    (Value.run_blocks m ρ)

end Cert.KernelIdeal.Whole

end
-- ==== Proof.RefIsSpec.lean ====
/-
  The reference computes `G`.

  The reference gathers the coefficient rows and the bias rows, multiplies the [256,4] coefficients by the [4,65536] factor
  table, views the product [256,256,256], multiplies each `x[b]` by batch element `b`'s [256,256] weight, and adds the bias
  row stretched along the 2048 rows. Read at an index `(b, n, o)` through the generated stage lemmas this is
  Σ_k x[b,n,k] · (Σ_r uv[b,r] · w[r, ·]) + bg[b,0,o],  where the inner product is read at the flat position of `(b, k, o)` in
  the [256,65536] product: row `((b·256 + k)·256 + o) / 65536 = b`, column `((b·256 + k)·256 + o) % 65536 = k·256 + o`.
  The two gathers stay as they are: both programs apply the same gathers to the same arrays.
-/
import proofs.«158704_j36481452212318_2_alg».proof.Proof.Gen.ReferenceIdeal.Read
import proofs.«158704_j36481452212318_2_alg».proof.Proof.Spec

noncomputable section

open scoped BigOperators

namespace Cert.ReferenceIdeal.RefValue

open Cert.ReferenceIdeal Cert.ReferenceIdeal.Read Cert.LowRank Idealize.ShloMosaic Idealize.ShloMosaic.ValueIdx

/-- The reference's last stage is `G` of the arguments and of the two gathered tables. -/
theorem ref_eq_G (x0 : (⟨S256x2048x256, .f32⟩ : BufTy).Contents (Elt Ideal)) (x1 : (⟨S256, .i32⟩ : BufTy).Contents (Elt Ideal))
    (x2 : (⟨S1024x4, .f32⟩ : BufTy).Contents (Elt Ideal)) (x3 : (⟨S4x65536, .f32⟩ : BufTy).Contents (Elt Ideal))
    (x4 : (⟨S1024x1x256, .f32⟩ : BufTy).Contents (Elt Ideal)) :
    val_main_v18 (F := Ideal) x0 x1 x2 x3 x4
      = G x0 (val_main_v6 (F := Ideal) x1 x2) x3 (val_main_v16 (F := Ideal) x1 x4) := by
  funext i
  obtain ⟨b, n, o, rfl⟩ : ∃ (b : Fin 256) (n : Fin 2048) (o : Fin 256), i = ix3 b n o := ⟨i 0, i 1, i 2, eq_ix3 i⟩
  have hb := b.isLt
  have ho := o.isLt
  rw [val_main_v18_apply, val_main_v9_apply, val_main_v17_apply]
  unfold G
  refine congrArg₂ (· + ·) (Finset.sum_congr rfl fun k _ => ?_) (congrArg _ (funext fun a => Fin.ext (by
    match a with
    | ⟨0, _⟩ => rfl
    | ⟨1, _⟩ => rfl
    | ⟨2, _⟩ => rfl)))
  have hk := k.isLt
  have e1 : lidx_main_v9 (ix3 b n o) k = ix3 b n k := funext fun a => Fin.ext (by
    match a with
    | ⟨0, _⟩ => rfl
    | ⟨1, _⟩ => rfl
    | ⟨2, _⟩ => rfl)
  have e2 : ∀ r : Fin 4, lidx_main_v7 (idx_main_v8 (ridx_main_v9 (ix3 b n o) k)) r = ix2 b r := fun r => funext fun a => Fin.ext (by
    match a with
    | ⟨0, _⟩ => show ((b.val * 256 + k.val) * 256 + o.val) / 65536 = b.val; omega
    | ⟨1, _⟩ => rfl)
  have e3 : ∀ r : Fin 4, ridx_main_v7 (idx_main_v8 (ridx_main_v9 (ix3 b n o) k)) r = ix2 r (flat k o) := fun r => funext fun a => Fin.ext (by
    match a with
    | ⟨0, _⟩ => rfl
    | ⟨1, _⟩ => show ((b.val * 256 + k.val) * 256 + o.val) % 65536 = k.val * 256 + o.val; omega)
  rw [val_main_v8_apply, val_main_v7_apply, e1]
  unfold weight
  simp only [e2, e3]

end Cert.ReferenceIdeal.RefValue

end
-- ==== Proof.lean ====
/-
  The kernel and its reference compute the same array over the extended reals.

  Both programs first normalise the 256 row indices (a negative index is moved up by 1024) and gather, with them, the rank
  coefficients `uv : [256,4]` from the coefficient table and the bias rows `bg : [256,1,256]` from the bias table — the same
  two gathers of the same arrays on both sides, so they are never opened. From there

    reference:  (uv · w) viewed [256,256,256], then  out[b,n,o] = Σ_k x[b,n,k] · (Σ_r uv[b,r] · w[r, k·256+o]) + bg[b,0,o];
    kernel:     per grid point two batch elements; the weight built as ((((0 + uv[b,0]·w[0,·]) + uv[b,1]·w[1,·]) + uv[b,2]·w[2,·])
                + uv[b,3]·w[3,·]), narrowed to bf16 (the identity on extended reals), multiplied on the matrix unit into a zero
                accumulator (the plain sum over `k`), the bias row added.

  The two differ only in how the four rank terms are added — a left-to-right fold from zero against a sum over the four
  ranks — and addition of extended reals is associative with unit 0, so they agree for every input: the finiteness
  precondition is not used. The idealisation pass rewrote nothing, so the word-level kernel is preserved trivially.

  Modules: Pieces (the body's re-laying operations at an index), Spec (the common function `G`, the fold-is-sum law, one
  block row is `G`), Payload (what the body stores at an index), KernelArray (blocks to the whole array, the host prefix,
  the kernel's run), RefIsSpec (the reference's last stage is `G`).
-/
import proofs.«158704_j36481452212318_2_alg».proof.Defs
import proofs.«158704_j36481452212318_2_alg».proof.Proof.Gen.Kernel
import proofs.«158704_j36481452212318_2_alg».proof.Proof.Gen.Kernel.Skeleton
import proofs.«158704_j36481452212318_2_alg».proof.Proof.Gen.Kernel.Launch
import proofs.«158704_j36481452212318_2_alg».proof.Proof.Gen.Kernel.Points
import proofs.«158704_j36481452212318_2_alg».proof.Proof.Gen.Kernel.Frame
import proofs.«158704_j36481452212318_2_alg».proof.Proof.Gen.KernelIdeal
import proofs.«158704_j36481452212318_2_alg».proof.Proof.Gen.KernelIdeal.Skeleton
import proofs.«158704_j36481452212318_2_alg».proof.Proof.Gen.KernelIdeal.Launch
import proofs.«158704_j36481452212318_2_alg».proof.Proof.Gen.KernelIdeal.Points
import proofs.«158704_j36481452212318_2_alg».proof.Proof.Gen.KernelIdeal.Frame
import proofs.«158704_j36481452212318_2_alg».proof.Proof.Gen.ReferenceIdeal
import proofs.«158704_j36481452212318_2_alg».proof.Proof.Gen.Pre_finite_inputs
import proofs.«158704_j36481452212318_2_alg».proof.Proof.Gen.KernelIdeal.Value
import proofs.«158704_j36481452212318_2_alg».proof.Proof.Gen.ReferenceIdeal.Run
import proofs.«158704_j36481452212318_2_alg».proof.Proof.Gen.ReferenceIdeal.Read
import proofs.«158704_j36481452212318_2_alg».proof.Proof.KernelArray
import proofs.«158704_j36481452212318_2_alg».proof.Proof.RefIsSpec
import Idealize.ShloMosaic.Adequacy
import Idealize.ShloMosaic.Init

noncomputable section

namespace Cert.Proof

open Idealize.ShloMosaic Idealize.SL.Sem

/-- The reference's gathered coefficients are the kernel's: the same gather of the same table at the same normalised rows. -/
theorem uv_eq (x1 : (⟨Cert.ReferenceIdeal.S256, .i32⟩ : BufTy).Contents (Elt Ideal))
    (x2 : (⟨Cert.ReferenceIdeal.S1024x4, .f32⟩ : BufTy).Contents (Elt Ideal)) :
    Cert.ReferenceIdeal.Read.val_main_v6 (F := Ideal) x1 x2 = Cert.KernelIdeal.Whole.uvK x1 x2 := rfl

/-- The reference's gathered bias rows are the kernel's. -/
theorem bg_eq (x1 : (⟨Cert.ReferenceIdeal.S256, .i32⟩ : BufTy).Contents (Elt Ideal))
    (x4 : (⟨Cert.ReferenceIdeal.S1024x1x256, .f32⟩ : BufTy).Contents (Elt Ideal)) :
    Cert.ReferenceIdeal.Read.val_main_v16 (F := Ideal) x1 x4 = Cert.KernelIdeal.Whole.bgK x1 x4 := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation pass rewrote no operation. -/
theorem preserves : Cert.preserves_Kernel_KernelIdeal := trivial

/-- Both runs end with the result array at `G` of the arguments and of the two gathered tables. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq_G, uv_eq, bg_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
